-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S5000x64 .f32
  ∧ IdealRules.sign_bit.Statement Cert.KernelIdeal.S5000x64 .f32
  ∧ IdealRules.sign_bit.Statement Cert.KernelIdeal.S5000x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S300000x64 : Shape := ⟨2, ![300000, 64]⟩
abbrev S1200000 : Shape := ⟨1, ![1200000]⟩
abbrev S3x500000x64 : Shape := ⟨3, ![3, 500000, 64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S1200000 : S_.BroadcastsInDim S1200000 (![] : Fin 0 → Fin S1200000.rank)
  reducesTo_S1200000_S_d0 : S1200000.ReducesTo [0] S_
  bcast_S_S3x500000x64 : S_.BroadcastsInDim S3x500000x64 (![] : Fin 0 → Fin S3x500000x64.rank)
  reducesTo_S3x500000x64_S_d0_1_2 : S3x500000x64.ReducesTo [0, 1, 2] S_

variable [Facts]

def fn_part1 {F : FTy → Type} [FloatOps F] (main_v13 : IVec S_ 1) (main_v16 : IVec S3x500000x64 1) : IVec S_ 1 :=
  let main_c_5 : IVec S_ 1 := constantI S_ 1 1#1
  let main_v17 : IVec S_ 1 := (fun x v => Host.reduce IntOp.andi x v reducesTo_S3x500000x64_S_d0_1_2 h_S_) main_v16 main_c_5
  let main_v18 : IVec S_ 1 := andi main_v13 main_v17
  main_v18

def fn {F : FTy → Type} [FloatOps F] (main_arg0 : FVec F S200000x64 .f32) (main_arg1 : FVec F S300000x64 .f32) (main_arg2 : FVec F S1200000 .f32) (main_arg3 : FVec F S3x500000x64 .f32) (main_arg4 : IVec S1200000 32) (main_arg5 : IVec S1200000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S1200000 .f32 := Host.absf main_arg2
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  let main_v14 : FVec F S3x500000x64 .f32 := Host.absf main_arg3
  let main_cst_4 : FVec F S_ .f32 := constant S_ .f32 0x7F800000#32
  let main_v15 : FVec F S3x500000x64 .f32 := broadcastInDim S3x500000x64 ![] bcast_S_S3x500000x64 main_cst_4
  let main_v16 : IVec S3x500000x64 1 := cmpf .olt main_v14 main_v15
  fn_part1 (F := F) main_v13 main_v16
-- ==== Kernel.lean ====
abbrev S200000x64 : Shape := ⟨2, ![200000, 64]⟩
abbrev S300000x64 : Shape := ⟨2, ![300000, 64]⟩
abbrev S1200000 : Shape := ⟨1, ![1200000]⟩
abbrev S3x500000x64 : Shape := ⟨3, ![3, 500000, 64]⟩
abbrev S500000x64 : Shape := ⟨2, ![500000, 64]⟩
abbrev S_ : Shape := ⟨0, ![]⟩
abbrev S1200000x1 : Shape := ⟨2, ![1200000, 1]⟩
abbrev S1200000x64 : Shape := ⟨2, ![1200000, 64]⟩
abbrev S1x500000x64 : Shape := ⟨3, ![1, 500000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 74
  | .vmem => 30
  | .smem => 0
  | _ => 0

abbrev bufTy : (tb : Table) → Fin (tcTables nBuf tb) → BufTy
  | .hbm, ⟨0, _⟩ => ⟨S200000x64, .f32⟩
  | .hbm, ⟨1, _⟩ => ⟨S300000x64, .f32⟩
  | .hbm, ⟨2, _⟩ => ⟨S1200000, .f32⟩
  | .hbm, ⟨3, _⟩ => ⟨S3x500000x64, .f32⟩
  | .hbm, ⟨4, _⟩ => ⟨S1200000, .i32⟩
  | .hbm, ⟨5, _⟩ => ⟨S1200000, .i32⟩
  | .hbm, ⟨6, _⟩ => ⟨S500000x64, .f32⟩
  | .hbm, ⟨7, _⟩ => ⟨S_, .f32⟩
  | .hbm, ⟨8, _⟩ => ⟨S500000x64, .f32⟩
  | .hbm, ⟨9, _⟩ => ⟨S1200000x1, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S1200000x64, .f32⟩
  | .hbm, ⟨20, _⟩ => ⟨S1200000x64, .f32⟩
  | .hbm, ⟨21, _⟩ => ⟨S_, .f32⟩
  | .hbm, ⟨22, _⟩ => ⟨S500000x64, .f32⟩
  | .hbm, ⟨23, _⟩ => ⟨S1200000x1, .i32⟩
  | .hbm, ⟨24, _⟩ => ⟨S500000x64, .f32⟩
  | .hbm, ⟨25, _⟩ => ⟨S1x500000x64, .f32⟩
  | .hbm, ⟨26, _⟩ => ⟨S500000x64, .f32⟩
  | .hbm, ⟨27, _⟩ => ⟨S500000x64, .f32⟩
  | .hbm, ⟨28, _⟩ => ⟨S500000x64, .f32⟩
  | .hbm, ⟨29, _⟩ => ⟨S1200000x1, .f32⟩
  | .hbm, ⟨30, _⟩ => ⟨S_, .i32⟩
  | .hbm, ⟨31, _⟩ => ⟨S1200000, .i32⟩
  | .hbm, ⟨32, _⟩ => ⟨S1200000, .i1⟩
  | .hbm, ⟨33, _⟩ => ⟨S_, .i32⟩
  | .hbm, ⟨34, _⟩ => ⟨S1200000, .i32⟩
  | .hbm, ⟨35, _⟩ => ⟨S1200000, .i32⟩
  | .hbm, ⟨36, _⟩ => ⟨S1200000, .i32⟩
  | .hbm, ⟨37, _⟩ => ⟨S1200000x1, .i32⟩
  | .hbm, ⟨38, _⟩ => ⟨S1200000x64, .f32⟩
  | .hbm, ⟨39, _⟩ => ⟨S1200000x64, .f32⟩
  | .hbm, ⟨40, _⟩ => ⟨S1200000x64, .f32⟩
  | .hbm, ⟨41, _⟩ => ⟨S_, .f32⟩
  | .hbm, ⟨42, _⟩ => ⟨S500000x64, .f32⟩
  | .hbm, ⟨43, _⟩ => ⟨S1200000x1, .i32⟩
  | .hbm, ⟨44, _⟩ => ⟨S500000x64, .f32⟩
  | .hbm, ⟨45, _⟩ => ⟨S1x500000x64, .f32⟩
  | .hbm, ⟨46, _⟩ => ⟨S500000x64, .f32⟩
  | .hbm, ⟨47, _⟩ => ⟨S500000x64, .f32⟩
  | .hbm, ⟨48, _⟩ => ⟨S500000x64, .f32⟩
  | .hbm, ⟨49, _⟩ => ⟨S1200000x1, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x64, .f32⟩
  | .hbm, ⟨59, _⟩ => ⟨S1200000x64, .f32⟩
  | .hbm, ⟨60, _⟩ => ⟨S1200000x64, .f32⟩
  | .hbm, ⟨61, _⟩ => ⟨S_, .f32⟩
  | .hbm, ⟨62, _⟩ => ⟨S500000x64, .f32⟩
  | .hbm, ⟨63, _⟩ => ⟨S1200000x1, .i32⟩
  | .hbm, ⟨64, _⟩ => ⟨S500000x64, .f32⟩
  | .hbm, ⟨65, _⟩ => ⟨S1x500000x64, .f32⟩
  | .hbm, ⟨66, _⟩ => ⟨S500000x64, .f32⟩
  | .hbm, ⟨67, _⟩ => ⟨S500000x64, .f32⟩
  | .hbm, ⟨68, _⟩ => ⟨S500000x64, .f32⟩
  | .hbm, ⟨69, _⟩ => ⟨S_, .f32⟩
  | .hbm, ⟨70, _⟩ => ⟨S500000x64, .f32⟩
  | .hbm, ⟨71, _⟩ => ⟨S500000x64, .f32⟩
  | .hbm, ⟨72, _⟩ => ⟨S200000x64, .f32⟩
  | .hbm, ⟨73, _⟩ => ⟨S300000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49_0 : Ref sig .tc := ⟨.hbm, 67, rfl⟩
abbrev main_v49_1 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [BitOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S200000x64_S300000x64_S500000x64_d0 : Shape.Concatenates [S200000x64, S300000x64] S500000x64 0
  bcast_S_S500000x64 : S_.BroadcastsInDim S500000x64 (![] : Fin 0 → Fin S500000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  slices_S3x500000x64_S1x500000x64_0_0_0 : S3x500000x64.Slices ![0, 0, 0] S1x500000x64
  shapeCasts_S1x500000x64_S500000x64 : S1x500000x64.ShapeCasts S500000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  slices_S3x500000x64_S1x500000x64_1_0_0 : S3x500000x64.Slices ![1, 0, 0] S1x500000x64
  slices_S3x500000x64_S1x500000x64_2_0_0 : S3x500000x64.Slices ![2, 0, 0] S1x500000x64
  slices_S500000x64_S200000x64_0_0 : S500000x64.Slices ![0, 0] S200000x64
  slices_S500000x64_S300000x64_200000_0 : S500000x64.Slices ![200000, 0] S300000x64
  gather_S500000x64_S1200000x1_S1200000x64_1_0_n_n_0_1_164_wf : GatherDims.WF S500000x64 S1200000x1 S1200000x64 [1] [0] [] [0] [] 1 ![1, 64]
  scatter_S500000x64_S1200000x1_S1200000x64_1_0_0_1_wf : ScatterDims.WF S500000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S500000x64.size a
  hwx0_0 : ∀ i : grid0.Coords, EltTy.bits .f32 = 32 ∨ (Rect.block (s := S500000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S500000x64.size a
  hwx0_1 : ∀ i : grid0.Coords, EltTy.bits .f32 = 32 ∨ (Rect.block (s := S500000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S500000x64.size a
  hwx0_2 : ∀ i : grid0.Coords, EltTy.bits .f32 = 32 ∨ (Rect.block (s := S500000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S500000x64.size a
  hwx0_3 : ∀ i : grid0.Coords, EltTy.bits .f32 = 32 ∨ (Rect.block (s := S500000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S500000x64.size a
  hwx0_4 : ∀ i : grid0.Coords, EltTy.bits .f32 = 32 ∨ (Rect.block (s := S500000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S500000x64.size a
  hwx1_0 : ∀ i : grid1.Coords, EltTy.bits .f32 = 32 ∨ (Rect.block (s := S500000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S500000x64.size a
  hwx1_1 : ∀ i : grid1.Coords, EltTy.bits .f32 = 32 ∨ (Rect.block (s := S500000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S500000x64.size a
  hwx1_2 : ∀ i : grid1.Coords, EltTy.bits .f32 = 32 ∨ (Rect.block (s := S500000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S500000x64.size a
  hwx1_3 : ∀ i : grid1.Coords, EltTy.bits .f32 = 32 ∨ (Rect.block (s := S500000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S500000x64.size a
  hwx1_4 : ∀ i : grid1.Coords, EltTy.bits .f32 = 32 ∨ (Rect.block (s := S500000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S500000x64.size a
  hwx2_0 : ∀ i : grid2.Coords, EltTy.bits .f32 = 32 ∨ (Rect.block (s := S500000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S500000x64.size a
  hwx2_1 : ∀ i : grid2.Coords, EltTy.bits .f32 = 32 ∨ (Rect.block (s := S500000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S500000x64.size a
  hwx2_2 : ∀ i : grid2.Coords, EltTy.bits .f32 = 32 ∨ (Rect.block (s := S500000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S500000x64.size a
  hwx2_3 : ∀ i : grid2.Coords, EltTy.bits .f32 = 32 ∨ (Rect.block (s := S500000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S500000x64.size a
  hwx2_4 : ∀ i : grid2.Coords, EltTy.bits .f32 = 32 ∨ (Rect.block (s := S500000x64) S5000x64.size (cc2_transform_4 i) (hinb2_4 i)).WholeWords (EltTy.packing .f32)

variable [Facts₀]

def gather_S500000x64_S1200000x1_S1200000x64_1_0_n_n_0_1_164 : GatherDims S500000x64 S1200000x1 S1200000x64 where
  offsetDims := [1]
  collapsedSliceDims := [0]
  operandBatchingDims := []
  startIndicesBatchingDims := []
  startIndexMap := [0]
  indexVectorDim := 1
  sliceSizes := ![1, 64]
  wf := gather_S500000x64_S1200000x1_S1200000x64_1_0_n_n_0_1_164_wf
def scatter_S500000x64_S1200000x1_S1200000x64_1_0_0_1 : ScatterDims S500000x64 S1200000x1 S1200000x64 where
  updateWindowDims := [1]
  insertedWindowDims := [0]
  scatterDimsToOperandDims := [0]
  indexVectorDim := 1
  wf := scatter_S500000x64_S1200000x1_S1200000x64_1_0_0_1_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v49_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x64 : Shape := ⟨2, ![200000, 64]⟩
abbrev S300000x64 : Shape := ⟨2, ![300000, 64]⟩
abbrev S1200000 : Shape := ⟨1, ![1200000]⟩
abbrev S3x500000x64 : Shape := ⟨3, ![3, 500000, 64]⟩
abbrev S500000x64 : Shape := ⟨2, ![500000, 64]⟩
abbrev S_ : Shape := ⟨0, ![]⟩
abbrev S1200000x1 : Shape := ⟨2, ![1200000, 1]⟩
abbrev S1200000x64 : Shape := ⟨2, ![1200000, 64]⟩
abbrev S1x500000x64 : Shape := ⟨3, ![1, 500000, 64]⟩
abbrev S500000 : Shape := ⟨1, ![500000]⟩
abbrev S500000x1 : Shape := ⟨2, ![500000, 1]⟩

abbrev nBuf : Space → Nat
  | .hbm => 119
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S300000x64, .f32⟩
  | .hbm, ⟨2, _⟩ => ⟨S1200000, .f32⟩
  | .hbm, ⟨3, _⟩ => ⟨S3x500000x64, .f32⟩
  | .hbm, ⟨4, _⟩ => ⟨S1200000, .i32⟩
  | .hbm, ⟨5, _⟩ => ⟨S1200000, .i32⟩
  | .hbm, ⟨6, _⟩ => ⟨S500000x64, .f32⟩
  | .hbm, ⟨7, _⟩ => ⟨S_, .f32⟩
  | .hbm, ⟨8, _⟩ => ⟨S500000x64, .f32⟩
  | .hbm, ⟨9, _⟩ => ⟨S1200000x1, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S1200000x64, .f32⟩
  | .hbm, ⟨20, _⟩ => ⟨S1200000x64, .f32⟩
  | .hbm, ⟨21, _⟩ => ⟨S_, .f32⟩
  | .hbm, ⟨22, _⟩ => ⟨S500000x64, .f32⟩
  | .hbm, ⟨23, _⟩ => ⟨S1200000x1, .i32⟩
  | .hbm, ⟨24, _⟩ => ⟨S500000x64, .f32⟩
  | .hbm, ⟨25, _⟩ => ⟨S1x500000x64, .f32⟩
  | .hbm, ⟨26, _⟩ => ⟨S500000x64, .f32⟩
  | .hbm, ⟨27, _⟩ => ⟨S500000x64, .f32⟩
  | .hbm, ⟨28, _⟩ => ⟨S_, .f32⟩
  | .hbm, ⟨29, _⟩ => ⟨S500000, .f32⟩
  | .hbm, ⟨30, _⟩ => ⟨S500000x1, .f32⟩
  | .hbm, ⟨31, _⟩ => ⟨S500000x1, .f32⟩
  | .hbm, ⟨32, _⟩ => ⟨S_, .f32⟩
  | .hbm, ⟨33, _⟩ => ⟨S500000x1, .f32⟩
  | .hbm, ⟨34, _⟩ => ⟨S500000x1, .f32⟩
  | .hbm, ⟨35, _⟩ => ⟨S500000x64, .f32⟩
  | .hbm, ⟨36, _⟩ => ⟨S500000x64, .f32⟩
  | .hbm, ⟨37, _⟩ => ⟨S500000x64, .f32⟩
  | .hbm, ⟨38, _⟩ => ⟨S500000x64, .f32⟩
  | .hbm, ⟨39, _⟩ => ⟨S_, .f32⟩
  | .hbm, ⟨40, _⟩ => ⟨S500000x64, .f32⟩
  | .hbm, ⟨41, _⟩ => ⟨S500000x64, .f32⟩
  | .hbm, ⟨42, _⟩ => ⟨S500000x64, .f32⟩
  | .hbm, ⟨43, _⟩ => ⟨S500000x64, .f32⟩
  | .hbm, ⟨44, _⟩ => ⟨S1200000x1, .f32⟩
  | .hbm, ⟨45, _⟩ => ⟨S_, .i32⟩
  | .hbm, ⟨46, _⟩ => ⟨S1200000, .i32⟩
  | .hbm, ⟨47, _⟩ => ⟨S1200000, .i1⟩
  | .hbm, ⟨48, _⟩ => ⟨S_, .i32⟩
  | .hbm, ⟨49, _⟩ => ⟨S1200000, .i32⟩
  | .hbm, ⟨50, _⟩ => ⟨S1200000, .i32⟩
  | .hbm, ⟨51, _⟩ => ⟨S1200000, .i32⟩
  | .hbm, ⟨52, _⟩ => ⟨S1200000x1, .i32⟩
  | .hbm, ⟨53, _⟩ => ⟨S1200000x64, .f32⟩
  | .hbm, ⟨54, _⟩ => ⟨S1200000x64, .f32⟩
  | .hbm, ⟨55, _⟩ => ⟨S1200000x64, .f32⟩
  | .hbm, ⟨56, _⟩ => ⟨S_, .f32⟩
  | .hbm, ⟨57, _⟩ => ⟨S500000x64, .f32⟩
  | .hbm, ⟨58, _⟩ => ⟨S1200000x1, .i32⟩
  | .hbm, ⟨59, _⟩ => ⟨S500000x64, .f32⟩
  | .hbm, ⟨60, _⟩ => ⟨S1x500000x64, .f32⟩
  | .hbm, ⟨61, _⟩ => ⟨S500000x64, .f32⟩
  | .hbm, ⟨62, _⟩ => ⟨S500000x64, .f32⟩
  | .hbm, ⟨63, _⟩ => ⟨S_, .f32⟩
  | .hbm, ⟨64, _⟩ => ⟨S500000, .f32⟩
  | .hbm, ⟨65, _⟩ => ⟨S500000x1, .f32⟩
  | .hbm, ⟨66, _⟩ => ⟨S500000x1, .f32⟩
  | .hbm, ⟨67, _⟩ => ⟨S_, .f32⟩
  | .hbm, ⟨68, _⟩ => ⟨S500000x1, .f32⟩
  | .hbm, ⟨69, _⟩ => ⟨S500000x1, .f32⟩
  | .hbm, ⟨70, _⟩ => ⟨S500000x64, .f32⟩
  | .hbm, ⟨71, _⟩ => ⟨S500000x64, .f32⟩
  | .hbm, ⟨72, _⟩ => ⟨S500000x64, .f32⟩
  | .hbm, ⟨73, _⟩ => ⟨S500000x64, .f32⟩
  | .hbm, ⟨74, _⟩ => ⟨S_, .f32⟩
  | .hbm, ⟨75, _⟩ => ⟨S500000x64, .f32⟩
  | .hbm, ⟨76, _⟩ => ⟨S500000x64, .f32⟩
  | .hbm, ⟨77, _⟩ => ⟨S500000x64, .f32⟩
  | .hbm, ⟨78, _⟩ => ⟨S500000x64, .f32⟩
  | .hbm, ⟨79, _⟩ => ⟨S1200000x1, .f32⟩
  | .hbm, ⟨80, _⟩ => ⟨S_, .i32⟩
  | .hbm, ⟨81, _⟩ => ⟨S1200000, .i32⟩
  | .hbm, ⟨82, _⟩ => ⟨S1200000, .i1⟩
  | .hbm, ⟨83, _⟩ => ⟨S_, .i32⟩
  | .hbm, ⟨84, _⟩ => ⟨S1200000, .i32⟩
  | .hbm, ⟨85, _⟩ => ⟨S1200000, .i32⟩
  | .hbm, ⟨86, _⟩ => ⟨S1200000, .i32⟩
  | .hbm, ⟨87, _⟩ => ⟨S1200000x1, .i32⟩
  | .hbm, ⟨88, _⟩ => ⟨S1200000x64, .f32⟩
  | .hbm, ⟨89, _⟩ => ⟨S1200000x64, .f32⟩
  | .hbm, ⟨90, _⟩ => ⟨S1200000x64, .f32⟩
  | .hbm, ⟨91, _⟩ => ⟨S_, .f32⟩
  | .hbm, ⟨92, _⟩ => ⟨S500000x64, .f32⟩
  | .hbm, ⟨93, _⟩ => ⟨S1200000x1, .i32⟩
  | .hbm, ⟨94, _⟩ => ⟨S500000x64, .f32⟩
  | .hbm, ⟨95, _⟩ => ⟨S1x500000x64, .f32⟩
  | .hbm, ⟨96, _⟩ => ⟨S500000x64, .f32⟩
  | .hbm, ⟨97, _⟩ => ⟨S500000x64, .f32⟩
  | .hbm, ⟨98, _⟩ => ⟨S_, .f32⟩
  | .hbm, ⟨99, _⟩ => ⟨S500000, .f32⟩
  | .hbm, ⟨100, _⟩ => ⟨S500000x1, .f32⟩
  | .hbm, ⟨101, _⟩ => ⟨S500000x1, .f32⟩
  | .hbm, ⟨102, _⟩ => ⟨S_, .f32⟩
  | .hbm, ⟨103, _⟩ => ⟨S500000x1, .f32⟩
  | .hbm, ⟨104, _⟩ => ⟨S500000x1, .f32⟩
  | .hbm, ⟨105, _⟩ => ⟨S500000x64, .f32⟩
  | .hbm, ⟨106, _⟩ => ⟨S500000x64, .f32⟩
  | .hbm, ⟨107, _⟩ => ⟨S500000x64, .f32⟩
  | .hbm, ⟨108, _⟩ => ⟨S500000x64, .f32⟩
  | .hbm, ⟨109, _⟩ => ⟨S_, .f32⟩
  | .hbm, ⟨110, _⟩ => ⟨S500000x64, .f32⟩
  | .hbm, ⟨111, _⟩ => ⟨S500000x64, .f32⟩
  | .hbm, ⟨112, _⟩ => ⟨S500000x64, .f32⟩
  | .hbm, ⟨113, _⟩ => ⟨S500000x64, .f32⟩
  | .hbm, ⟨114, _⟩ => ⟨S_, .f32⟩
  | .hbm, ⟨115, _⟩ => ⟨S500000x64, .f32⟩
  | .hbm, ⟨116, _⟩ => ⟨S500000x64, .f32⟩
  | .hbm, ⟨117, _⟩ => ⟨S200000x64, .f32⟩
  | .hbm, ⟨118, _⟩ => ⟨S300000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_call1_cst : Ref sig .tc := ⟨.hbm, 63, rfl⟩
abbrev main_call1_v1 : Ref sig .tc := ⟨.hbm, 64, rfl⟩
abbrev main_call1_v2 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  concatenates_S200000x64_S300000x64_S500000x64_d0 : Shape.Concatenates [S200000x64, S300000x64] S500000x64 0
  bcast_S_S500000x64 : S_.BroadcastsInDim S500000x64 (![] : Fin 0 → Fin S500000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  slices_S3x500000x64_S1x500000x64_0_0_0 : S3x500000x64.Slices ![0, 0, 0] S1x500000x64
  shapeCasts_S1x500000x64_S500000x64 : S1x500000x64.ShapeCasts S500000x64
  reducesTo_S500000x64_S500000_d1 : S500000x64.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  slices_S3x500000x64_S1x500000x64_1_0_0 : S3x500000x64.Slices ![1, 0, 0] S1x500000x64
  slices_S3x500000x64_S1x500000x64_2_0_0 : S3x500000x64.Slices ![2, 0, 0] S1x500000x64
  slices_S500000x64_S200000x64_0_0 : S500000x64.Slices ![0, 0] S200000x64
  slices_S500000x64_S300000x64_200000_0 : S500000x64.Slices ![200000, 0] S300000x64
  gather_S500000x64_S1200000x1_S1200000x64_1_0_n_n_0_1_164_wf : GatherDims.WF S500000x64 S1200000x1 S1200000x64 [1] [0] [] [0] [] 1 ![1, 64]
  scatter_S500000x64_S1200000x1_S1200000x64_1_0_0_1_wf : ScatterDims.WF S500000x64 S1200000x1 S1200000x64 [1] [0] [0] 1

variable [Facts₀]

def gather_S500000x64_S1200000x1_S1200000x64_1_0_n_n_0_1_164 : GatherDims S500000x64 S1200000x1 S1200000x64 where
  offsetDims := [1]
  collapsedSliceDims := [0]
  operandBatchingDims := []
  startIndicesBatchingDims := []
  startIndexMap := [0]
  indexVectorDim := 1
  sliceSizes := ![1, 64]
  wf := gather_S500000x64_S1200000x1_S1200000x64_1_0_n_n_0_1_164_wf
def scatter_S500000x64_S1200000x1_S1200000x64_1_0_0_1 : ScatterDims S500000x64 S1200000x1 S1200000x64 where
  updateWindowDims := [1]
  insertedWindowDims := [0]
  scatterDimsToOperandDims := [0]
  indexVectorDim := 1
  wf := scatter_S500000x64_S1200000x1_S1200000x64_1_0_0_1_wf

class Facts : Prop extends Facts₀ where

variable [Facts]
-- ==== Proof.KernelRun.lean ====
/-
  The idealized kernel's run with its two results named.

  @main is seven segments: four stretches of host operations around three launches of the perturb-and-accumulate
  kernel. The buffer contents at each boundary are a fold from the launch memory: a stretch applies its operations
  (`StableHlo.after`), a launch replaces the five arrays of its windows by what the pipeline leaves. After the last
  stretch the fold is `Gen.W7`. Every terminating execution ends with each unscoped buffer at `W7`; here that is read
  at the two result buffers as well as at the six arguments.
-/
import proofs.«179942_j566935683766_2_alg».proof.Proof.KernelIdealFrameP

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates; the two results end at the fold's contents `W7`, the arguments
    as launched. -/
theorem run : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Results

end
-- ==== Proof.Perturb.lean ====
/-
  One layer's perturbation, as a function of real-valued (extended real) entries.

  For a node table `sp` (the sparse message pass) and a noise table `nk`, both 500000 x 64, a layer adds to each entry
  of `sp` its sign times the corresponding entry of the ROW-NORMALISED noise, scaled by the word for 0.1:
    ego (r, q) = sp (r, q) + sign (sp (r, q)) * (nk (r, q) / max (sqrt (sum_k nk (r, k)^2), w)) * c,
  with `w` the word for 1e-12 and `c` the word for 0.1. `pert` is that expression of the three numbers it depends
  on (the entry, the noise entry, the row's sum of squares); `ego` is the layer written with the host's whole-array
  operations, and `ego_apply` reads it at an index: the host's row sum starts from the zero word, which is the real 0.
-/
import Idealize.ShloMosaic.PureOps.Ideal
import Idealize.ShloMosaic.PureOps.Ideal.Laws
import Idealize.ShloMosaic.Lib.ValueIdx
import Idealize.ShloMosaic.Lib.Pipeline.Value

noncomputable section

namespace Cert.Perturb

open Idealize.ShloMosaic Idealize.ShloMosaic.ValueIdx

/-- The node table, a column of one number per node, the vector of those numbers, and the scalar shape. -/
abbrev SNodes : Shape := ⟨2, ![500000, 64]⟩
abbrev SCol : Shape := ⟨2, ![500000, 1]⟩
abbrev SRows : Shape := ⟨1, ![500000]⟩
abbrev S0 : Shape := ⟨0, ![]⟩

theorem reducesTo_rows : SNodes.ReducesTo [1] SRows := by decide
theorem reduces_rows : SNodes.Reduces [1] SRows := by decide
theorem scalar_pos : 0 < S0.numel := by decide
theorem bcast_rows_col : SRows.BroadcastsInDim SCol (![0] : Fin 1 → Fin SCol.rank) := by decide
theorem bcast_scalar_col : S0.BroadcastsInDim SCol (![] : Fin 0 → Fin SCol.rank) := by decide
theorem bcast_col_nodes : SCol.BroadcastsInDim SNodes (![0, 1] : Fin 2 → Fin SNodes.rank) := by decide
theorem bcast_scalar_nodes : S0.BroadcastsInDim SNodes (![] : Fin 0 → Fin SNodes.rank) := by decide

/-- One entry after the layer: `s` the entry of the message pass, `n` the noise entry, `ss` the sum of the squares of
    the noise entry's row. -/
def pert (s n ss : EReal) : EReal :=
  s + Ideal.sign s * Ideal.div n (max (Ideal.sqrt ss) (Ideal.ofBits .f32 0x2B8CBCCC#32)) * Ideal.ofBits .f32 0x3DCCCCCD#32

variable {F : FTy → Type} [FloatOps F]

/-- The layer in the host's whole-array operations: the row sums of the squared noise, their square roots as a column,
    the column's maximum with 1e-12, the noise divided by that column, times the sign of the message pass, times 0.1,
    added to the message pass. -/
def ego (sp nk : FVec F SNodes .f32) : FVec F SNodes .f32 :=
  addf sp (mulf (mulf (Host.sign sp) (Host.divf nk (broadcastInDim SNodes ![0, 1] bcast_col_nodes
      (maximumf (Host.sqrt (broadcastInDim SCol ![0] bcast_rows_col
          (Host.reduceAdd (mulf nk nk) (constant S0 .f32 0x00000000#32) reducesTo_rows scalar_pos)))
        (broadcastInDim SCol ![] bcast_scalar_col (constant S0 .f32 0x2B8CBCCC#32))))))
    (broadcastInDim SNodes ![] bcast_scalar_nodes (constant S0 .f32 0x3DCCCCCD#32)))

/-- The row sums the host takes, read at a row: the zero word plus the sum over the row, that is, the sum. -/
theorem rowSum_apply (x : FVec Ideal SNodes .f32) (r : Fin 500000) :
    Host.reduceAdd x (constant (F := Ideal) S0 .f32 0x00000000#32) reducesTo_rows scalar_pos (ix1 r)
      = ∑ k : Fin 64, x (ix2 r k) := by
  simp only [Host.reduceAdd, Ideal.hostReduceAdd_def]
  rw [Ideal.hostReduceAdd_single reducesTo_rows reduces_rows]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The layer read at an entry. -/
theorem ego_apply (sp nk : FVec Ideal SNodes .f32) (r : Fin 500000) (q : Fin 64) :
    ego sp nk (ix2 r q) = pert (sp (ix2 r q)) (nk (ix2 r q)) (∑ k : Fin 64, nk (ix2 r k) * nk (ix2 r k)) := by
  unfold ego pert
  -- the broadcast column read at (r, q) is the column at (r, 0); the broadcast scalars are their words
  have hcol : ∀ y : FVec Ideal SCol .f32, broadcastInDim SNodes ![0, 1] bcast_col_nodes y (ix2 r q) = y (ix2 r (0 : Fin 1)) := fun y =>
    broadcastInDim_apply _ bcast_col_nodes y (ix2 r q) (ix2 r (0 : Fin 1)) (fun a => match a with
      | ⟨0, _⟩ => by show r.val = if (500000 : Nat) = 1 then 0 else r.val; rw [if_neg (by decide)]
      | ⟨1, _⟩ => by show 0 = if (1 : Nat) = 1 then 0 else q.val; rw [if_pos rfl])
  have hrow : ∀ y : FVec Ideal SRows .f32, broadcastInDim SCol ![0] bcast_rows_col y (ix2 r (0 : Fin 1)) = y (ix1 r) := fun y =>
    broadcastInDim_apply _ bcast_rows_col y (ix2 r (0 : Fin 1)) (ix1 r) (fun a => match a with
      | ⟨0, _⟩ => by show r.val = if (500000 : Nat) = 1 then 0 else r.val; rw [if_neg (by decide)])
  have hsc : ∀ (w : BitVec 32), broadcastInDim SNodes ![] bcast_scalar_nodes (constant (F := Ideal) S0 .f32 w) (ix2 r q) = Ideal.ofBits .f32 w := fun w =>
    broadcastInDim_apply _ bcast_scalar_nodes (constant (F := Ideal) S0 .f32 w) (ix2 r q) ix0 (fun a => a.elim0)
  have hsc1 : ∀ (w : BitVec 32), broadcastInDim SCol ![] bcast_scalar_col (constant (F := Ideal) S0 .f32 w) (ix2 r (0 : Fin 1)) = Ideal.ofBits .f32 w := fun w =>
    broadcastInDim_apply _ bcast_scalar_col (constant (F := Ideal) S0 .f32 w) (ix2 r (0 : Fin 1)) ix0 (fun a => a.elim0)
  have hsign : ∀ (x : FVec Ideal SNodes .f32) (i : SNodes.Idx), Host.sign x i = Ideal.sign (x i) := fun _ _ => rfl
  have hdiv : ∀ (x y : FVec Ideal SNodes .f32) (i : SNodes.Idx), Host.divf x y i = Ideal.div (x i) (y i) := fun _ _ _ => rfl
  have hsqrt : ∀ (x : FVec Ideal SCol .f32) (i : SCol.Idx), Host.sqrt x i = Ideal.sqrt (x i) := fun _ _ => rfl
  rw [addf_apply, mulf_apply, mulf_apply, hsign, hdiv, hcol, hsc, maximumf_apply, hsqrt, hrow, hsc1, rowSum_apply]
  rfl

end Cert.Perturb

end
-- ==== Proof.Payload.lean ====
/-
  What one block of the kernel computes, entry by entry.

  The body loads a 5000 x 64 block `x0` of the message pass, the same block `x1` of the noise and the block `x2` of the
  running total, and stores two blocks: the perturbed block and the new total. Entry (p, q) of the first is
  `pert` of `x0 (p, q)`, `x1 (p, q)` and the sum over row p of the squares of `x1`: the lane sum of `x1 * x1` starts from
  the neutral word, so it IS the sum; the column it is reshaped to and broadcast from is read at (p, 0); and the
  comparison-and-select term for the sign is the sign of the entry. Entry (p, q) of the second block is the total's entry
  plus the first block's entry. The three launches run the same body, so their payloads are one function.
-/
import proofs.«179942_j566935683766_2_alg».proof.Proof.Gen.KernelIdeal.Skeleton
import proofs.«179942_j566935683766_2_alg».proof.Proof.Perturb

noncomputable section

namespace Cert.KernelIdeal.Payload

open Idealize.ShloMosaic Idealize.ShloMosaic.ValueIdx Cert.KernelIdeal Cert.KernelIdeal.Gen Cert.Perturb

/-- The lane sum of a block, read at a row: the sum over the row. -/
theorem laneSum_apply (x : FVec Ideal S5000x64 .f32) (h : S5000x64.Reduces [1] S5000) (hφ : FKind.Formats .f32)
    (hacc : (0x00000000#32 : BitVec 32) = 0x00000000#32) (p : Fin 5000) :
    multiReduction .add [1] S5000 x 0x00000000#32 h hφ hacc (ix1 p) = ∑ k : Fin 64, x (ix2 p k) :=
  (Ideal.multiReduction_add_single x 0x00000000#32 h hφ hacc (ix1 p)).trans
    (Finset.sum_congr rfl fun k _ => congrArg x (funext fun a => Fin.ext (by match a with | ⟨0, _⟩ => rfl | ⟨1, _⟩ => rfl)))

/-- A column broadcast along the rows, read at (p, q), is the column at (p, 0). -/
theorem colBroadcast_apply (Y : FVec Ideal S5000x1 .f32) (h : S5000x1.Broadcasts S5000x64) (p : Fin 5000) (q : Fin 64) :
    broadcastTo S5000x64 Y h (ix2 p q) = Y (ix2 p (0 : Fin 1)) :=
  broadcastTo_apply Y h (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A vector reshaped to a column, read at (p, 0), is the vector at p. -/
theorem colCast_apply (Z : FVec Ideal S5000 .f32) (h : S5000.ShapeCasts S5000x1) (p : Fin 5000) :
    shapeCast S5000x1 Z h (ix2 p (0 : Fin 1)) = Z (ix1 p) :=
  shapeCast_apply Z h (ix2 p (0 : Fin 1)) (ix1 p) (by
    rw [Shape.rowMajor_val_one, Shape.rowMajor_val_two]
    show p.val = p.val * 1 + 0
    omega)

/-- The first stored block at an entry. -/
theorem pay1_apply (x0 x1 : Vec Ideal S5000x64 .f32) (p : Fin 5000) (q : Fin 64) :
    k0_pay1 (F := Ideal) x0 x1 (ix2 p q)
      = pert (x0 (ix2 p q)) (x1 (ix2 p q)) (∑ k : Fin 64, x1 (ix2 p k) * x1 (ix2 p k)) := by
  unfold k0_pay1
  dsimp only
  simp only [shapeCast_self]
  rw [addf_apply, mulf_apply, mulf_apply, divf_apply, colBroadcast_apply, maximumf_apply]
  have hsqrt : ∀ (x : FVec Ideal S5000x1 .f32) (i : S5000x1.Idx), sqrt x i = Ideal.sqrt (x i) := fun _ _ => rfl
  rw [hsqrt, colCast_apply, laneSum_apply]
  unfold pert
  refine congrArg (x0 (ix2 p q) + ·) (congrArg (· * _) (congrArg (· * _) ?_))
  exact Ideal.jnp_sign_eq_sign_f32 (x0 (ix2 p q))

/-- The second stored block at an entry: the total's entry plus the first block's. -/
theorem pay2_apply (x0 x1 x2 : Vec Ideal S5000x64 .f32) (i : S5000x64.Idx) :
    k0_pay2 (F := Ideal) x0 x1 x2 i = x2 i + k0_pay1 (F := Ideal) x0 x1 i := by
  unfold k0_pay2
  simp only [shapeCast_self]
  rfl

/-- Row `p` of block `b` of the node table: blocks are 5000 consecutive rows. -/
def row (b : ℕ) (hb : b < 100) (p : Fin 5000) : Fin 500000 := ⟨b * 5000 + p.val, by have := p.isLt; omega⟩

/-- A block's result is the layer restricted to the block's rows: if `x0` and `x1` are rows 5000 b … 5000 b + 4999 of the
    tables `A0` and `A1`, then entry (p, q) of the first stored block is the layer's entry at row 5000 b + p. The row sum
    only ever reads the entry's own row, which lies in the block. -/
theorem block_ego (A0 A1 : FVec Ideal SNodes .f32) (x0 x1 : Vec Ideal S5000x64 .f32) (b : ℕ) (hb : b < 100)
    (h0 : ∀ (p : Fin 5000) (k : Fin 64), x0 (ix2 p k) = A0 (ix2 (row b hb p) k))
    (h1 : ∀ (p : Fin 5000) (k : Fin 64), x1 (ix2 p k) = A1 (ix2 (row b hb p) k)) (p : Fin 5000) (q : Fin 64) :
    k0_pay1 (F := Ideal) x0 x1 (ix2 p q) = ego A0 A1 (ix2 (row b hb p) q) := by
  rw [pay1_apply, ego_apply, h0, h1]
  exact congrArg (pert _ _) (Finset.sum_congr rfl fun k _ => by rw [h1])

/-- The same for the running total: the second stored block is the total's block plus the layer's. -/
theorem block_acc (A0 A1 A2 : FVec Ideal SNodes .f32) (x0 x1 x2 : Vec Ideal S5000x64 .f32) (b : ℕ) (hb : b < 100)
    (h0 : ∀ (p : Fin 5000) (k : Fin 64), x0 (ix2 p k) = A0 (ix2 (row b hb p) k))
    (h1 : ∀ (p : Fin 5000) (k : Fin 64), x1 (ix2 p k) = A1 (ix2 (row b hb p) k))
    (h2 : ∀ (p : Fin 5000) (k : Fin 64), x2 (ix2 p k) = A2 (ix2 (row b hb p) k)) (p : Fin 5000) (q : Fin 64) :
    k0_pay2 (F := Ideal) x0 x1 x2 (ix2 p q) = addf A2 (ego A0 A1) (ix2 (row b hb p) q) := by
  rw [pay2_apply, block_ego A0 A1 x0 x1 b hb h0 h1 p q, h2]
  rfl

/-- The three launches' payloads are one function. -/
theorem pay1_1 : @k1_pay1 Ideal _ = @k0_pay1 Ideal _ := rfl
theorem pay1_2 : @k2_pay1 Ideal _ = @k0_pay1 Ideal _ := rfl
theorem pay2_1 : @k1_pay2 Ideal _ = @k0_pay2 Ideal _ := rfl
theorem pay2_2 : @k2_pay2 Ideal _ = @k0_pay2 Ideal _ := rfl

end Cert.KernelIdeal.Payload

end
-- ==== Proof.Region0.lean ====
/-
  Launch 0 of the kernel, as whole arrays.

  The launch walks 100 grid points; point t stages rows 5000 t … 5000 t + 4999 of its three input tables, runs the body,
  and writes the two result blocks back to the same rows of the two output tables. Every row of an output table lies in
  exactly the block of the point (row / 5000), so after the launch the first output table is the layer `ego` of the
  first two input tables and the second is the third input table plus that — whatever the entry contents `V` were.
-/
import proofs.«179942_j566935683766_2_alg».proof.Proof.KernelIdealFrameP
import proofs.«179942_j566935683766_2_alg».proof.Proof.Payload

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Perturb Cert.KernelIdeal.Payload

variable (V : (c : Dev nD) → (b : Ref sig .tc) → Buf (Elt Ideal) ((c : Thread nD τ).loc b))

theorem origin : (![0, 0] : Fin 2 → Nat) = fun _ => 0 := funext fun a => by fin_cases a <;> rfl

/-- The grid has 100 points. -/
theorem point_lt (t : Fin cfg0.N) : t.val < 100 := by have := t.isLt; have hN : cfg0.N = 100 := N_0; omega

/-- The printed index maps, decided over the grid: at point t every window's block index is (t, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- Entry (p, k) of a window's block at point t sits at row 5000 t + p, column k, of its table. -/
theorem emb_0 (t : Fin cfg0.N) (p : Fin 5000) (k : Fin 64) :
    ((cfg0.win 0).blk t).view.emb (ix2 p k) = ix2 (row t.val (point_lt t) p) k := by
  obtain ⟨⟨e0, e1⟩, -⟩ := index_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega
theorem emb_1 (t : Fin cfg0.N) (p : Fin 5000) (k : Fin 64) :
    ((cfg0.win 1).blk t).view.emb (ix2 p k) = ix2 (row t.val (point_lt t) p) k := by
  obtain ⟨-, ⟨e0, e1⟩, -⟩ := index_facts t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega
theorem emb_2 (t : Fin cfg0.N) (p : Fin 5000) (k : Fin 64) :
    ((cfg0.win 2).blk t).view.emb (ix2 p k) = ix2 (row t.val (point_lt t) p) k := by
  obtain ⟨-, -, ⟨e0, e1⟩, -⟩ := index_facts t
  funext a; apply Fin.ext
  match a with
  | ⟨0, _⟩ => show win0_2.index t (0 : Fin 2) * 5000 + 1 * p.val = t.val * 5000 + p.val; omega
  | ⟨1, _⟩ => show win0_2.index t (1 : Fin 2) * 64 + 1 * k.val = k.val; omega
theorem emb_3 (t : Fin cfg0.N) (p : Fin 5000) (k : Fin 64) :
    ((cfg0.win 3).blk t).view.emb (ix2 p k) = ix2 (row t.val (point_lt t) p) k := by
  obtain ⟨-, -, -, ⟨e0, e1⟩, -⟩ := index_facts t
  funext a; apply Fin.ext
  match a with
  | ⟨0, _⟩ => show win0_3.index t (0 : Fin 2) * 5000 + 1 * p.val = t.val * 5000 + p.val; omega
  | ⟨1, _⟩ => show win0_3.index t (1 : Fin 2) * 64 + 1 * k.val = k.val; omega
theorem emb_4 (t : Fin cfg0.N) (p : Fin 5000) (k : Fin 64) :
    ((cfg0.win 4).blk t).view.emb (ix2 p k) = ix2 (row t.val (point_lt t) p) k := by
  obtain ⟨-, -, -, -, ⟨e0, e1⟩⟩ := index_facts t
  funext a; apply Fin.ext
  match a with
  | ⟨0, _⟩ => show win0_4.index t (0 : Fin 2) * 5000 + 1 * p.val = t.val * 5000 + p.val; omega
  | ⟨1, _⟩ => show win0_4.index t (1 : Fin 2) * 64 + 1 * k.val = k.val; omega

/-- What point t writes back through window 3 is block t of the layer of the first two input tables. -/
theorem flushed_3 (c : Dev nD) (t : Fin cfg0.N) :
    (dat0 V c).flushed 3 t = ((cfg0.win 3).blk t).view.read (Elt Ideal) (ego (F := Ideal) (V c main_v14) (V c main_v16)) := by
  show (cfg0.win 3).cut (grid0.coords t) ((dat0 V c).after 3 t) = _
  rw [after0_3]
  unfold out0_3
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  refine (block_ego (V c main_v14) (V c main_v16) (iblk0 V c 0 t) (iblk0 V c 1 t) t.val (point_lt t)
    (fun p k => congrArg (V c main_v14) (emb_0 t p k)) (fun p k => congrArg (V c main_v16) (emb_1 t p k)) p q).trans ?_
  exact (congrArg (ego (F := Ideal) (V c main_v14) (V c main_v16)) (emb_3 t p q)).symm

/-- What point t writes back through window 4 is block t of the third input table plus the layer. -/
theorem flushed_4 (c : Dev nD) (t : Fin cfg0.N) :
    (dat0 V c).flushed 4 t
      = ((cfg0.win 4).blk t).view.read (Elt Ideal) (addf (V c main_v1) (ego (F := Ideal) (V c main_v14) (V c main_v16))) := by
  show (cfg0.win 4).cut (grid0.coords t) ((dat0 V c).after 4 t) = _
  rw [after0_4]
  unfold out0_4
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  refine (block_acc (V c main_v14) (V c main_v16) (V c main_v1) (iblk0 V c 0 t) (iblk0 V c 1 t) (iblk0 V c 2 t) t.val (point_lt t)
    (fun p k => congrArg (V c main_v14) (emb_0 t p k)) (fun p k => congrArg (V c main_v16) (emb_1 t p k))
    (fun p k => congrArg (V c main_v1) (emb_2 t p k)) p q).trans ?_
  exact (congrArg (addf (V c main_v1) (ego (F := Ideal) (V c main_v14) (V c main_v16))) (emb_4 t p q)).symm

/-- An index of an output table is in point t's block iff each coordinate is in the block's range on its axis. -/
theorem mem_blk_3 (t : Fin cfg0.N) (i : S500000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v17_0).slice (win0_3.rect t)).set ↔ _
  rw [View.set_slice_whole, Rect.mem_set_unit]
  exact Iff.rfl
theorem mem_blk_4 (t : Fin cfg0.N) (i : S500000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v17_1).slice (win0_4.rect t)).set ↔ _
  rw [View.set_slice_whole, Rect.mem_set_unit]
  exact Iff.rfl

/-- The point that writes row r is r / 5000. -/
def pointOf (i : S500000x64.Idx) : Fin cfg0.N :=
  ⟨(i 0).val / 5000, by
    have h : (i 0).val < 500000 := (i 0).isLt
    show (i 0).val / 5000 < grid0.N
    rw [N_0]; omega⟩

/-- Every entry of the output tables is written back by some point. -/
theorem cover_3 (i : S500000x64.Idx) :
    ∃ t : Fin cfg0.N, (cfg0.win 3).flush t = true ∧ i ∈ ((cfg0.win 3).blk t).view.set := by
  have h0 : (i 0).val < 500000 := (i 0).isLt
  have h1 : (i 1).val < 64 := (i 1).isLt
  refine ⟨pointOf i, flush0_3 _, ?_⟩
  obtain ⟨-, -, -, ⟨e0, e1⟩, -⟩ := index_facts (pointOf i)
  have hv : (pointOf i).val = (i 0).val / 5000 := rfl
  rw [mem_blk_3]
  intro a
  match a with
  | ⟨0, _⟩ => show win0_3.index (pointOf i) (0 : Fin 2) * 5000 ≤ (i 0).val ∧ (i 0).val < win0_3.index (pointOf i) (0 : Fin 2) * 5000 + 5000; omega
  | ⟨1, _⟩ => show win0_3.index (pointOf i) (1 : Fin 2) * 64 ≤ (i 1).val ∧ (i 1).val < win0_3.index (pointOf i) (1 : Fin 2) * 64 + 64; omega
theorem cover_4 (i : S500000x64.Idx) :
    ∃ t : Fin cfg0.N, (cfg0.win 4).flush t = true ∧ i ∈ ((cfg0.win 4).blk t).view.set := by
  have h0 : (i 0).val < 500000 := (i 0).isLt
  have h1 : (i 1).val < 64 := (i 1).isLt
  refine ⟨pointOf i, flush0_4 _, ?_⟩
  obtain ⟨-, -, -, -, ⟨e0, e1⟩⟩ := index_facts (pointOf i)
  have hv : (pointOf i).val = (i 0).val / 5000 := rfl
  rw [mem_blk_4]
  intro a
  match a with
  | ⟨0, _⟩ => show win0_4.index (pointOf i) (0 : Fin 2) * 5000 ≤ (i 0).val ∧ (i 0).val < win0_4.index (pointOf i) (0 : Fin 2) * 5000 + 5000; omega
  | ⟨1, _⟩ => show win0_4.index (pointOf i) (1 : Fin 2) * 64 ≤ (i 1).val ∧ (i 1).val < win0_4.index (pointOf i) (1 : Fin 2) * 64 + 64; omega

/-- After the launch the first output table is the layer of the first two input tables … -/
theorem ego_table (c : Dev nD) : (dat0 V c).arrAt 3 cfg0.N = ego (F := Ideal) (V c main_v14) (V c main_v16) :=
  (dat0 V c).arrAt_eq_of_cover 3 (ego (F := Ideal) (V c main_v14) (V c main_v16)) (fun t _ => flushed_3 V c t) cover_3

/-- … and the second is the third input table plus that layer. -/
theorem acc_table (c : Dev nD) :
    (dat0 V c).arrAt 4 cfg0.N = addf (V c main_v1) (ego (F := Ideal) (V c main_v14) (V c main_v16)) :=
  (dat0 V c).arrAt_eq_of_cover 4 (addf (V c main_v1) (ego (F := Ideal) (V c main_v14) (V c main_v16))) (fun t _ => flushed_4 V c t) cover_4

end Cert.KernelIdeal.Region0

end
-- ==== Proof.Region1.lean ====
/-
  Launch 1 of the kernel, as whole arrays.

  The launch walks 100 grid points; point t stages rows 5000 t … 5000 t + 4999 of its three input tables, runs the body,
  and writes the two result blocks back to the same rows of the two output tables. Every row of an output table lies in
  exactly the block of the point (row / 5000), so after the launch the first output table is the layer `ego` of the
  first two input tables and the second is the third input table plus that — whatever the entry contents `V` were.
-/
import proofs.«179942_j566935683766_2_alg».proof.Proof.KernelIdealFrameP
import proofs.«179942_j566935683766_2_alg».proof.Proof.Payload

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Perturb Cert.KernelIdeal.Payload

variable (V : (c : Dev nD) → (b : Ref sig .tc) → Buf (Elt Ideal) ((c : Thread nD τ).loc b))

theorem origin : (![0, 0] : Fin 2 → Nat) = fun _ => 0 := funext fun a => by fin_cases a <;> rfl

/-- The grid has 100 points. -/
theorem point_lt (t : Fin cfg1.N) : t.val < 100 := by have := t.isLt; have hN : cfg1.N = 100 := N_1; omega

/-- The printed index maps, decided over the grid: at point t every window's block index is (t, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0) :=
  (by decide +kernel : ∀ t : Fin grid1.N, _)

/-- Entry (p, k) of a window's block at point t sits at row 5000 t + p, column k, of its table. -/
theorem emb_0 (t : Fin cfg1.N) (p : Fin 5000) (k : Fin 64) :
    ((cfg1.win 0).blk t).view.emb (ix2 p k) = ix2 (row t.val (point_lt t) p) k := by
  obtain ⟨⟨e0, e1⟩, -⟩ := index_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega
theorem emb_1 (t : Fin cfg1.N) (p : Fin 5000) (k : Fin 64) :
    ((cfg1.win 1).blk t).view.emb (ix2 p k) = ix2 (row t.val (point_lt t) p) k := by
  obtain ⟨-, ⟨e0, e1⟩, -⟩ := index_facts t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega
theorem emb_2 (t : Fin cfg1.N) (p : Fin 5000) (k : Fin 64) :
    ((cfg1.win 2).blk t).view.emb (ix2 p k) = ix2 (row t.val (point_lt t) p) k := by
  obtain ⟨-, -, ⟨e0, e1⟩, -⟩ := index_facts t
  funext a; apply Fin.ext
  match a with
  | ⟨0, _⟩ => show win1_2.index t (0 : Fin 2) * 5000 + 1 * p.val = t.val * 5000 + p.val; omega
  | ⟨1, _⟩ => show win1_2.index t (1 : Fin 2) * 64 + 1 * k.val = k.val; omega
theorem emb_3 (t : Fin cfg1.N) (p : Fin 5000) (k : Fin 64) :
    ((cfg1.win 3).blk t).view.emb (ix2 p k) = ix2 (row t.val (point_lt t) p) k := by
  obtain ⟨-, -, -, ⟨e0, e1⟩, -⟩ := index_facts t
  funext a; apply Fin.ext
  match a with
  | ⟨0, _⟩ => show win1_3.index t (0 : Fin 2) * 5000 + 1 * p.val = t.val * 5000 + p.val; omega
  | ⟨1, _⟩ => show win1_3.index t (1 : Fin 2) * 64 + 1 * k.val = k.val; omega
theorem emb_4 (t : Fin cfg1.N) (p : Fin 5000) (k : Fin 64) :
    ((cfg1.win 4).blk t).view.emb (ix2 p k) = ix2 (row t.val (point_lt t) p) k := by
  obtain ⟨-, -, -, -, ⟨e0, e1⟩⟩ := index_facts t
  funext a; apply Fin.ext
  match a with
  | ⟨0, _⟩ => show win1_4.index t (0 : Fin 2) * 5000 + 1 * p.val = t.val * 5000 + p.val; omega
  | ⟨1, _⟩ => show win1_4.index t (1 : Fin 2) * 64 + 1 * k.val = k.val; omega

/-- What point t writes back through window 3 is block t of the layer of the first two input tables. -/
theorem flushed_3 (c : Dev nD) (t : Fin cfg1.N) :
    (dat1 V c).flushed 3 t = ((cfg1.win 3).blk t).view.read (Elt Ideal) (ego (F := Ideal) (V c main_v30) (V c main_v32)) := by
  show (cfg1.win 3).cut (grid1.coords t) ((dat1 V c).after 3 t) = _
  rw [after1_3]
  unfold out1_3
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  refine (block_ego (V c main_v30) (V c main_v32) (iblk1 V c 0 t) (iblk1 V c 1 t) t.val (point_lt t)
    (fun p k => congrArg (V c main_v30) (emb_0 t p k)) (fun p k => congrArg (V c main_v32) (emb_1 t p k)) p q).trans ?_
  exact (congrArg (ego (F := Ideal) (V c main_v30) (V c main_v32)) (emb_3 t p q)).symm

/-- What point t writes back through window 4 is block t of the third input table plus the layer. -/
theorem flushed_4 (c : Dev nD) (t : Fin cfg1.N) :
    (dat1 V c).flushed 4 t
      = ((cfg1.win 4).blk t).view.read (Elt Ideal) (addf (V c main_v17_1) (ego (F := Ideal) (V c main_v30) (V c main_v32))) := by
  show (cfg1.win 4).cut (grid1.coords t) ((dat1 V c).after 4 t) = _
  rw [after1_4]
  unfold out1_4
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  refine (block_acc (V c main_v30) (V c main_v32) (V c main_v17_1) (iblk1 V c 0 t) (iblk1 V c 1 t) (iblk1 V c 2 t) t.val (point_lt t)
    (fun p k => congrArg (V c main_v30) (emb_0 t p k)) (fun p k => congrArg (V c main_v32) (emb_1 t p k))
    (fun p k => congrArg (V c main_v17_1) (emb_2 t p k)) p q).trans ?_
  exact (congrArg (addf (V c main_v17_1) (ego (F := Ideal) (V c main_v30) (V c main_v32))) (emb_4 t p q)).symm

/-- An index of an output table is in point t's block iff each coordinate is in the block's range on its axis. -/
theorem mem_blk_3 (t : Fin cfg1.N) (i : S500000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v33_0).slice (win1_3.rect t)).set ↔ _
  rw [View.set_slice_whole, Rect.mem_set_unit]
  exact Iff.rfl
theorem mem_blk_4 (t : Fin cfg1.N) (i : S500000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v33_1).slice (win1_4.rect t)).set ↔ _
  rw [View.set_slice_whole, Rect.mem_set_unit]
  exact Iff.rfl

/-- The point that writes row r is r / 5000. -/
def pointOf (i : S500000x64.Idx) : Fin cfg1.N :=
  ⟨(i 0).val / 5000, by
    have h : (i 0).val < 500000 := (i 0).isLt
    show (i 0).val / 5000 < grid1.N
    rw [N_1]; omega⟩

/-- Every entry of the output tables is written back by some point. -/
theorem cover_3 (i : S500000x64.Idx) :
    ∃ t : Fin cfg1.N, (cfg1.win 3).flush t = true ∧ i ∈ ((cfg1.win 3).blk t).view.set := by
  have h0 : (i 0).val < 500000 := (i 0).isLt
  have h1 : (i 1).val < 64 := (i 1).isLt
  refine ⟨pointOf i, flush1_3 _, ?_⟩
  obtain ⟨-, -, -, ⟨e0, e1⟩, -⟩ := index_facts (pointOf i)
  have hv : (pointOf i).val = (i 0).val / 5000 := rfl
  rw [mem_blk_3]
  intro a
  match a with
  | ⟨0, _⟩ => show win1_3.index (pointOf i) (0 : Fin 2) * 5000 ≤ (i 0).val ∧ (i 0).val < win1_3.index (pointOf i) (0 : Fin 2) * 5000 + 5000; omega
  | ⟨1, _⟩ => show win1_3.index (pointOf i) (1 : Fin 2) * 64 ≤ (i 1).val ∧ (i 1).val < win1_3.index (pointOf i) (1 : Fin 2) * 64 + 64; omega
theorem cover_4 (i : S500000x64.Idx) :
    ∃ t : Fin cfg1.N, (cfg1.win 4).flush t = true ∧ i ∈ ((cfg1.win 4).blk t).view.set := by
  have h0 : (i 0).val < 500000 := (i 0).isLt
  have h1 : (i 1).val < 64 := (i 1).isLt
  refine ⟨pointOf i, flush1_4 _, ?_⟩
  obtain ⟨-, -, -, -, ⟨e0, e1⟩⟩ := index_facts (pointOf i)
  have hv : (pointOf i).val = (i 0).val / 5000 := rfl
  rw [mem_blk_4]
  intro a
  match a with
  | ⟨0, _⟩ => show win1_4.index (pointOf i) (0 : Fin 2) * 5000 ≤ (i 0).val ∧ (i 0).val < win1_4.index (pointOf i) (0 : Fin 2) * 5000 + 5000; omega
  | ⟨1, _⟩ => show win1_4.index (pointOf i) (1 : Fin 2) * 64 ≤ (i 1).val ∧ (i 1).val < win1_4.index (pointOf i) (1 : Fin 2) * 64 + 64; omega

/-- After the launch the first output table is the layer of the first two input tables … -/
theorem ego_table (c : Dev nD) : (dat1 V c).arrAt 3 cfg1.N = ego (F := Ideal) (V c main_v30) (V c main_v32) :=
  (dat1 V c).arrAt_eq_of_cover 3 (ego (F := Ideal) (V c main_v30) (V c main_v32)) (fun t _ => flushed_3 V c t) cover_3

/-- … and the second is the third input table plus that layer. -/
theorem acc_table (c : Dev nD) :
    (dat1 V c).arrAt 4 cfg1.N = addf (V c main_v17_1) (ego (F := Ideal) (V c main_v30) (V c main_v32)) :=
  (dat1 V c).arrAt_eq_of_cover 4 (addf (V c main_v17_1) (ego (F := Ideal) (V c main_v30) (V c main_v32))) (fun t _ => flushed_4 V c t) cover_4

end Cert.KernelIdeal.Region1

end
-- ==== Proof.Region2.lean ====
/-
  Launch 2 of the kernel, as whole arrays.

  The launch walks 100 grid points; point t stages rows 5000 t … 5000 t + 4999 of its three input tables, runs the body,
  and writes the two result blocks back to the same rows of the two output tables. Every row of an output table lies in
  exactly the block of the point (row / 5000), so after the launch the first output table is the layer `ego` of the
  first two input tables and the second is the third input table plus that — whatever the entry contents `V` were.
-/
import proofs.«179942_j566935683766_2_alg».proof.Proof.KernelIdealFrameP
import proofs.«179942_j566935683766_2_alg».proof.Proof.Payload

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Perturb Cert.KernelIdeal.Payload

variable (V : (c : Dev nD) → (b : Ref sig .tc) → Buf (Elt Ideal) ((c : Thread nD τ).loc b))

theorem origin : (![0, 0] : Fin 2 → Nat) = fun _ => 0 := funext fun a => by fin_cases a <;> rfl

/-- The grid has 100 points. -/
theorem point_lt (t : Fin cfg2.N) : t.val < 100 := by have := t.isLt; have hN : cfg2.N = 100 := N_2; omega

/-- The printed index maps, decided over the grid: at point t every window's block index is (t, 0). -/
theorem index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0) :=
  (by decide +kernel : ∀ t : Fin grid2.N, _)

/-- Entry (p, k) of a window's block at point t sits at row 5000 t + p, column k, of its table. -/
theorem emb_0 (t : Fin cfg2.N) (p : Fin 5000) (k : Fin 64) :
    ((cfg2.win 0).blk t).view.emb (ix2 p k) = ix2 (row t.val (point_lt t) p) k := by
  obtain ⟨⟨e0, e1⟩, -⟩ := index_facts t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega
theorem emb_1 (t : Fin cfg2.N) (p : Fin 5000) (k : Fin 64) :
    ((cfg2.win 1).blk t).view.emb (ix2 p k) = ix2 (row t.val (point_lt t) p) k := by
  obtain ⟨-, ⟨e0, e1⟩, -⟩ := index_facts t
  funext a; apply Fin.ext
  match a with
  | ⟨0, _⟩ => show win2_1.index t (0 : Fin 2) * 5000 + 1 * p.val = t.val * 5000 + p.val; omega
  | ⟨1, _⟩ => show win2_1.index t (1 : Fin 2) * 64 + 1 * k.val = k.val; omega
theorem emb_2 (t : Fin cfg2.N) (p : Fin 5000) (k : Fin 64) :
    ((cfg2.win 2).blk t).view.emb (ix2 p k) = ix2 (row t.val (point_lt t) p) k := by
  obtain ⟨-, -, ⟨e0, e1⟩, -⟩ := index_facts t
  funext a; apply Fin.ext
  match a with
  | ⟨0, _⟩ => show win2_2.index t (0 : Fin 2) * 5000 + 1 * p.val = t.val * 5000 + p.val; omega
  | ⟨1, _⟩ => show win2_2.index t (1 : Fin 2) * 64 + 1 * k.val = k.val; omega
theorem emb_3 (t : Fin cfg2.N) (p : Fin 5000) (k : Fin 64) :
    ((cfg2.win 3).blk t).view.emb (ix2 p k) = ix2 (row t.val (point_lt t) p) k := by
  obtain ⟨-, -, -, ⟨e0, e1⟩, -⟩ := index_facts t
  funext a; apply Fin.ext
  match a with
  | ⟨0, _⟩ => show win2_3.index t (0 : Fin 2) * 5000 + 1 * p.val = t.val * 5000 + p.val; omega
  | ⟨1, _⟩ => show win2_3.index t (1 : Fin 2) * 64 + 1 * k.val = k.val; omega
theorem emb_4 (t : Fin cfg2.N) (p : Fin 5000) (k : Fin 64) :
    ((cfg2.win 4).blk t).view.emb (ix2 p k) = ix2 (row t.val (point_lt t) p) k := by
  obtain ⟨-, -, -, -, ⟨e0, e1⟩⟩ := index_facts t
  funext a; apply Fin.ext
  match a with
  | ⟨0, _⟩ => show win2_4.index t (0 : Fin 2) * 5000 + 1 * p.val = t.val * 5000 + p.val; omega
  | ⟨1, _⟩ => show win2_4.index t (1 : Fin 2) * 64 + 1 * k.val = k.val; omega

/-- What point t writes back through window 3 is block t of the layer of the first two input tables. -/
theorem flushed_3 (c : Dev nD) (t : Fin cfg2.N) :
    (dat2 V c).flushed 3 t = ((cfg2.win 3).blk t).view.read (Elt Ideal) (ego (F := Ideal) (V c main_v46) (V c main_v48)) := by
  show (cfg2.win 3).cut (grid2.coords t) ((dat2 V c).after 3 t) = _
  rw [after2_3]
  unfold out2_3
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  refine (block_ego (V c main_v46) (V c main_v48) (iblk2 V c 0 t) (iblk2 V c 1 t) t.val (point_lt t)
    (fun p k => congrArg (V c main_v46) (emb_0 t p k)) (fun p k => congrArg (V c main_v48) (emb_1 t p k)) p q).trans ?_
  exact (congrArg (ego (F := Ideal) (V c main_v46) (V c main_v48)) (emb_3 t p q)).symm

/-- What point t writes back through window 4 is block t of the third input table plus the layer. -/
theorem flushed_4 (c : Dev nD) (t : Fin cfg2.N) :
    (dat2 V c).flushed 4 t
      = ((cfg2.win 4).blk t).view.read (Elt Ideal) (addf (V c main_v33_1) (ego (F := Ideal) (V c main_v46) (V c main_v48))) := by
  show (cfg2.win 4).cut (grid2.coords t) ((dat2 V c).after 4 t) = _
  rw [after2_4]
  unfold out2_4
  rw [View.canon_unit_zero origin]
  simp only [View.ld_unit_zero (S := S5000x64) origin]
  funext j
  obtain ⟨p, q, rfl⟩ : ∃ (p : Fin 5000) (q : Fin 64), j = ix2 p q := ⟨j 0, j 1, eq_ix2 j⟩
  refine (block_acc (V c main_v46) (V c main_v48) (V c main_v33_1) (iblk2 V c 0 t) (iblk2 V c 1 t) (iblk2 V c 2 t) t.val (point_lt t)
    (fun p k => congrArg (V c main_v46) (emb_0 t p k)) (fun p k => congrArg (V c main_v48) (emb_1 t p k))
    (fun p k => congrArg (V c main_v33_1) (emb_2 t p k)) p q).trans ?_
  exact (congrArg (addf (V c main_v33_1) (ego (F := Ideal) (V c main_v46) (V c main_v48))) (emb_4 t p q)).symm

/-- An index of an output table is in point t's block iff each coordinate is in the block's range on its axis. -/
theorem mem_blk_3 (t : Fin cfg2.N) (i : S500000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v49_0).slice (win2_3.rect t)).set ↔ _
  rw [View.set_slice_whole, Rect.mem_set_unit]
  exact Iff.rfl
theorem mem_blk_4 (t : Fin cfg2.N) (i : S500000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v49_1).slice (win2_4.rect t)).set ↔ _
  rw [View.set_slice_whole, Rect.mem_set_unit]
  exact Iff.rfl

/-- The point that writes row r is r / 5000. -/
def pointOf (i : S500000x64.Idx) : Fin cfg2.N :=
  ⟨(i 0).val / 5000, by
    have h : (i 0).val < 500000 := (i 0).isLt
    show (i 0).val / 5000 < grid2.N
    rw [N_2]; omega⟩

/-- Every entry of the output tables is written back by some point. -/
theorem cover_3 (i : S500000x64.Idx) :
    ∃ t : Fin cfg2.N, (cfg2.win 3).flush t = true ∧ i ∈ ((cfg2.win 3).blk t).view.set := by
  have h0 : (i 0).val < 500000 := (i 0).isLt
  have h1 : (i 1).val < 64 := (i 1).isLt
  refine ⟨pointOf i, flush2_3 _, ?_⟩
  obtain ⟨-, -, -, ⟨e0, e1⟩, -⟩ := index_facts (pointOf i)
  have hv : (pointOf i).val = (i 0).val / 5000 := rfl
  rw [mem_blk_3]
  intro a
  match a with
  | ⟨0, _⟩ => show win2_3.index (pointOf i) (0 : Fin 2) * 5000 ≤ (i 0).val ∧ (i 0).val < win2_3.index (pointOf i) (0 : Fin 2) * 5000 + 5000; omega
  | ⟨1, _⟩ => show win2_3.index (pointOf i) (1 : Fin 2) * 64 ≤ (i 1).val ∧ (i 1).val < win2_3.index (pointOf i) (1 : Fin 2) * 64 + 64; omega
theorem cover_4 (i : S500000x64.Idx) :
    ∃ t : Fin cfg2.N, (cfg2.win 4).flush t = true ∧ i ∈ ((cfg2.win 4).blk t).view.set := by
  have h0 : (i 0).val < 500000 := (i 0).isLt
  have h1 : (i 1).val < 64 := (i 1).isLt
  refine ⟨pointOf i, flush2_4 _, ?_⟩
  obtain ⟨-, -, -, -, ⟨e0, e1⟩⟩ := index_facts (pointOf i)
  have hv : (pointOf i).val = (i 0).val / 5000 := rfl
  rw [mem_blk_4]
  intro a
  match a with
  | ⟨0, _⟩ => show win2_4.index (pointOf i) (0 : Fin 2) * 5000 ≤ (i 0).val ∧ (i 0).val < win2_4.index (pointOf i) (0 : Fin 2) * 5000 + 5000; omega
  | ⟨1, _⟩ => show win2_4.index (pointOf i) (1 : Fin 2) * 64 ≤ (i 1).val ∧ (i 1).val < win2_4.index (pointOf i) (1 : Fin 2) * 64 + 64; omega

/-- After the launch the first output table is the layer of the first two input tables … -/
theorem ego_table (c : Dev nD) : (dat2 V c).arrAt 3 cfg2.N = ego (F := Ideal) (V c main_v46) (V c main_v48) :=
  (dat2 V c).arrAt_eq_of_cover 3 (ego (F := Ideal) (V c main_v46) (V c main_v48)) (fun t _ => flushed_3 V c t) cover_3

/-- … and the second is the third input table plus that layer. -/
theorem acc_table (c : Dev nD) :
    (dat2 V c).arrAt 4 cfg2.N = addf (V c main_v33_1) (ego (F := Ideal) (V c main_v46) (V c main_v48)) :=
  (dat2 V c).arrAt_eq_of_cover 4 (addf (V c main_v33_1) (ego (F := Ideal) (V c main_v46) (V c main_v48))) (fun t _ => flushed_4 V c t) cover_4

end Cert.KernelIdeal.Region2

end
-- ==== Proof.Stretch.lean ====
/-
  The host operations around the launches, as functions of the buffers they read.

  Each stretch of @main's host operations is a fold over the memory; read at the buffers a launch is about to stage, or
  at the results, it is a short expression of a few earlier buffers, whatever the memory `W` the stretch started from:
    * the sparse message pass `pass e vals rows cols`: gather the rows `cols` of the table `e` (a negative column index
      wrapped by the row count first), scale each gathered row by its edge's value, and scatter-add the scaled rows into
      a zero table at the rows `rows`;
    * the layer's noise table, slice k of the stacked noise reshaped to a table;
    * the zero table the running total starts from;
    * the mean: the final total divided by the word for 3, cut into the users' and the items' rows.
-/
import proofs.«179942_j566935683766_2_alg».proof.Proof.KernelIdealLaunchP
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Gen Cert.KernelIdeal.GenP

variable {F : FTy → Type} [FloatOps F]

/-- The zero table. -/
def zeros : (⟨S500000x64, .f32⟩ : BufTy).Contents (Elt F) :=
  broadcastInDim S500000x64 ![] bcast_S_S500000x64 (constant S_ .f32 0x00000000#32)

/-- The users' and the items' embeddings stacked into one node table. -/
def nodes (u : (⟨S200000x64, .f32⟩ : BufTy).Contents (Elt F)) (i : (⟨S300000x64, .f32⟩ : BufTy).Contents (Elt F)) :
    (⟨S500000x64, .f32⟩ : BufTy).Contents (Elt F) :=
  concatenate S500000x64 0 [⟨S200000x64, u⟩, ⟨S300000x64, i⟩] concatenates_S200000x64_S300000x64_S500000x64_d0

/-- A negative column index counts from the end of the table. -/
def wrap (cols : (⟨S1200000, .i32⟩ : BufTy).Contents (Elt F)) : (⟨S1200000, .i32⟩ : BufTy).Contents (Elt F) :=
  select (cmpi .slt cols (broadcastInDim S1200000 ![] bcast_S_S1200000 (constantI S_ 32 0#32)))
    (addi cols (broadcastInDim S1200000 ![] bcast_S_S1200000 (constantI S_ 32 500000#32))) cols

/-- The sparse message pass: out[rows[e]] += vals[e] * table[cols[e]] over the edges e, from a zero table. -/
def pass (e : (⟨S500000x64, .f32⟩ : BufTy).Contents (Elt F)) (vals : (⟨S1200000, .f32⟩ : BufTy).Contents (Elt F))
    (rows cols : (⟨S1200000, .i32⟩ : BufTy).Contents (Elt F)) : (⟨S500000x64, .f32⟩ : BufTy).Contents (Elt F) :=
  Host.scatterAdd scatter_S500000x64_S1200000x1_S1200000x64_1_0_0_1 (zeros (F := F))
    (broadcastInDim S1200000x1 ![0] bcast_S1200000_S1200000x1_0 rows)
    (mulf (broadcastInDim S1200000x64 ![0, 1] bcast_S1200000x1_S1200000x64_0_1 (broadcastInDim S1200000x1 ![0] bcast_S1200000_S1200000x1_0 vals))
      (Host.gather gather_S500000x64_S1200000x1_S1200000x64_1_0_n_n_0_1_164 e
        (broadcastInDim S1200000x1 ![0] bcast_S1200000_S1200000x1_0 (wrap cols))))

/-- The three layers' noise tables. -/
def noise0 (x : (⟨S3x500000x64, .f32⟩ : BufTy).Contents (Elt F)) : (⟨S500000x64, .f32⟩ : BufTy).Contents (Elt F) :=
  shapeCast _ (extractStridedSlice S1x500000x64 ![0, 0, 0] x slices_S3x500000x64_S1x500000x64_0_0_0) shapeCasts_S1x500000x64_S500000x64
def noise1 (x : (⟨S3x500000x64, .f32⟩ : BufTy).Contents (Elt F)) : (⟨S500000x64, .f32⟩ : BufTy).Contents (Elt F) :=
  shapeCast _ (extractStridedSlice S1x500000x64 ![1, 0, 0] x slices_S3x500000x64_S1x500000x64_1_0_0) shapeCasts_S1x500000x64_S500000x64
def noise2 (x : (⟨S3x500000x64, .f32⟩ : BufTy).Contents (Elt F)) : (⟨S500000x64, .f32⟩ : BufTy).Contents (Elt F) :=
  shapeCast _ (extractStridedSlice S1x500000x64 ![2, 0, 0] x slices_S3x500000x64_S1x500000x64_2_0_0) shapeCasts_S1x500000x64_S500000x64

/-- The mean over the three layers, and its two cuts. -/
def mean (acc : (⟨S500000x64, .f32⟩ : BufTy).Contents (Elt F)) : (⟨S500000x64, .f32⟩ : BufTy).Contents (Elt F) :=
  Host.divf acc (broadcastInDim S500000x64 ![] bcast_S_S500000x64 (constant S_ .f32 0x40400000#32))
def users (x : (⟨S500000x64, .f32⟩ : BufTy).Contents (Elt F)) : (⟨S200000x64, .f32⟩ : BufTy).Contents (Elt F) :=
  extractStridedSlice S200000x64 ![0, 0] x slices_S500000x64_S200000x64_0_0
def items (x : (⟨S500000x64, .f32⟩ : BufTy).Contents (Elt F)) : (⟨S300000x64, .f32⟩ : BufTy).Contents (Elt F) :=
  extractStridedSlice S300000x64 ![200000, 0] x slices_S500000x64_S300000x64_200000_0

variable (W : Valuation τ sig (Elt F))

/-! ## Before the first launch -/

theorem first_pass : StableHlo.after hostOps0 W (Proc.devRef .tc main_v14)
    = pass (nodes (W (Proc.devRef .tc main_arg0)) (W (Proc.devRef .tc main_arg1))) (W (Proc.devRef .tc main_arg2))
        (W (Proc.devRef .tc main_arg4)) (W (Proc.devRef .tc main_arg5)) := by
  after_results_simp <;> rfl
theorem first_noise : StableHlo.after hostOps0 W (Proc.devRef .tc main_v16) = noise0 (W (Proc.devRef .tc main_arg3)) := by
  after_results; rfl
theorem first_total : StableHlo.after hostOps0 W (Proc.devRef .tc main_v1) = zeros (F := F) := by
  after_results; rfl

/-! ## Between the launches -/

theorem second_pass : StableHlo.after hostOps1 W (Proc.devRef .tc main_v30)
    = pass (W (Proc.devRef .tc main_v17_0)) (W (Proc.devRef .tc main_arg2)) (W (Proc.devRef .tc main_arg4)) (W (Proc.devRef .tc main_arg5)) := by
  after_results_simp <;> rfl
theorem second_noise : StableHlo.after hostOps1 W (Proc.devRef .tc main_v32) = noise1 (W (Proc.devRef .tc main_arg3)) := by
  after_results; rfl
theorem third_pass : StableHlo.after hostOps2 W (Proc.devRef .tc main_v46)
    = pass (W (Proc.devRef .tc main_v33_0)) (W (Proc.devRef .tc main_arg2)) (W (Proc.devRef .tc main_arg4)) (W (Proc.devRef .tc main_arg5)) := by
  after_results_simp <;> rfl
theorem third_noise : StableHlo.after hostOps2 W (Proc.devRef .tc main_v48) = noise2 (W (Proc.devRef .tc main_arg3)) := by
  after_results; rfl

/-! ## After the last launch -/

theorem result_users : StableHlo.after hostOps3 W (Proc.devRef .tc main_v52) = users (mean (W (Proc.devRef .tc main_v49_1))) := by
  after_results; rfl
theorem result_items : StableHlo.after hostOps3 W (Proc.devRef .tc main_v53) = items (mean (W (Proc.devRef .tc main_v49_1))) := by
  after_results; rfl

end Cert.KernelIdeal.Stretch

end
-- ==== Proof.Encoder.lean ====
/-
  The encoder as one function of its six inputs.

  Three rounds. Round k passes the current node table along the edges (`pass`), perturbs the result by the sign-aligned,
  row-normalised noise of that round (`ego`), and adds the perturbed table to a running total that starts at zero. The
  first round's table is the users' and the items' embeddings stacked. The result is the total divided by 3, cut into the
  users' rows and the items' rows.
-/
import proofs.«179942_j566935683766_2_alg».proof.Proof.Stretch
import proofs.«179942_j566935683766_2_alg».proof.Proof.Perturb

noncomputable section

namespace Cert.Encoder

open Idealize.ShloMosaic Cert.KernelIdeal Cert.KernelIdeal.Stretch Cert.Perturb

variable {F : FTy → Type} [FloatOps F]

/-- The six inputs: the two embedding tables, the edge values, the stacked noise, the edges' rows and columns. -/
structure Inputs (F : FTy → Type) [FloatOps F] where
  user : (⟨S200000x64, .f32⟩ : BufTy).Contents (Elt F)
  item : (⟨S300000x64, .f32⟩ : BufTy).Contents (Elt F)
  vals : (⟨S1200000, .f32⟩ : BufTy).Contents (Elt F)
  noise : (⟨S3x500000x64, .f32⟩ : BufTy).Contents (Elt F)
  rows : (⟨S1200000, .i32⟩ : BufTy).Contents (Elt F)
  cols : (⟨S1200000, .i32⟩ : BufTy).Contents (Elt F)

/-- A node table. -/
abbrev Table (F : FTy → Type) [FloatOps F] : Type := (⟨S500000x64, .f32⟩ : BufTy).Contents (Elt F)

variable (x : Inputs F)

/-- Round 1: the message pass of the stacked embeddings, its perturbation, the total. -/
def sp1 : Table F := pass (nodes x.user x.item) x.vals x.rows x.cols
def ego1 : Table F := ego (sp1 x) (noise0 x.noise)
def acc1 : Table F := addf (zeros (F := F)) (ego1 x)
/-- Round 2. -/
def sp2 : Table F := pass (ego1 x) x.vals x.rows x.cols
def ego2 : Table F := ego (sp2 x) (noise1 x.noise)
def acc2 : Table F := addf (acc1 x) (ego2 x)
/-- Round 3. -/
def sp3 : Table F := pass (ego2 x) x.vals x.rows x.cols
def ego3 : Table F := ego (sp3 x) (noise2 x.noise)
def acc3 : Table F := addf (acc2 x) (ego3 x)

/-- The two results. -/
def outUsers : (⟨S200000x64, .f32⟩ : BufTy).Contents (Elt F) := users (mean (acc3 x))
def outItems : (⟨S300000x64, .f32⟩ : BufTy).Contents (Elt F) := items (mean (acc3 x))

end Cert.Encoder

end
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.Boundaries.lean ====
/-
  The idealized kernel computes the encoder.

  The buffer contents at the boundaries of @main's seven segments, read at the buffers the next segment uses, are the
  encoder's quantities: before launch k the three staged tables are round k's message pass, its noise table and the
  running total so far (a stretch computes the first two from the previous launch's perturbed table and from arguments,
  and leaves the total alone); after launch k the two output tables are round k's perturbed table and the new total
  (the launch as whole arrays); no stretch and no launch writes an argument. After the last stretch the two results are
  the two cuts of the mean.
-/
import proofs.«179942_j566935683766_2_alg».proof.Proof.KernelIdealFrameP
import proofs.«179942_j566935683766_2_alg».proof.Proof.Region0
import proofs.«179942_j566935683766_2_alg».proof.Proof.Region1
import proofs.«179942_j566935683766_2_alg».proof.Proof.Region2
import proofs.«179942_j566935683766_2_alg».proof.Proof.Stretch
import proofs.«179942_j566935683766_2_alg».proof.Proof.Encoder
import proofs.«179942_j566935683766_2_alg».proof.Proof.LibHostKeeps

set_option maxRecDepth 16384

noncomputable section

namespace Cert.KernelIdeal.Boundaries

open Idealize.ShloMosaic Idealize.ShloMosaic.TcCoe Idealize.SL.Sem
open Cert.KernelIdeal Cert.KernelIdeal.Gen Cert.KernelIdeal.GenP Cert.KernelIdeal.Stretch Cert.Perturb Cert.Encoder

variable (m : (ℓ : Loc nD τ sig) → Buf (Elt Ideal) ℓ) (ρ : Dev nD → PrngReg) (c : Dev nD)

/-- The six arguments as core `c` is launched with them. -/
def inputs : Inputs Ideal where
  user := m ((c : Thread nD τ).loc main_arg0)
  item := m ((c : Thread nD τ).loc main_arg1)
  vals := m ((c : Thread nD τ).loc main_arg2)
  noise := m ((c : Thread nD τ).loc main_arg3)
  rows := m ((c : Thread nD τ).loc main_arg4)
  cols := m ((c : Thread nD τ).loc main_arg5)

/-! ## Round 1 -/

theorem entry1_sp : V1 m ρ c main_v14 = sp1 (inputs m c) := first_pass (W0 m ρ c)
theorem entry1_noise : V1 m ρ c main_v16 = noise0 (inputs m c).noise := first_noise (W0 m ρ c)
theorem entry1_total : V1 m ρ c main_v1 = zeros (F := Ideal) := first_total (W0 m ρ c)

theorem exit1_ego : W2 m ρ c (Proc.devRef .tc main_v17_0) = ego1 (inputs m c) := by
  unfold ego1
  rw [← entry1_sp m ρ c, ← entry1_noise m ρ c]
  exact (W2_arr m ρ c 3).trans (Region0.ego_table (V1 m ρ) c)
theorem exit1_total : W2 m ρ c (Proc.devRef .tc main_v17_1) = acc1 (inputs m c) := by
  unfold acc1 ego1
  rw [← entry1_sp m ρ c, ← entry1_noise m ρ c, ← entry1_total m ρ c]
  exact (W2_arr m ρ c 4).trans (Region0.acc_table (V1 m ρ) c)
theorem exit1_vals : W2 m ρ c (Proc.devRef .tc main_arg2) = (inputs m c).vals :=
  (W2_of_ne m ρ c main_arg2 (by decide)).trans (show StableHlo.after hostOps0 (W0 m ρ c) (Proc.devRef .tc main_arg2) = W0 m ρ c (Proc.devRef .tc main_arg2) from by host_keeps hostOps0)
theorem exit1_noise : W2 m ρ c (Proc.devRef .tc main_arg3) = (inputs m c).noise :=
  (W2_of_ne m ρ c main_arg3 (by decide)).trans (show StableHlo.after hostOps0 (W0 m ρ c) (Proc.devRef .tc main_arg3) = W0 m ρ c (Proc.devRef .tc main_arg3) from by host_keeps hostOps0)
theorem exit1_rows : W2 m ρ c (Proc.devRef .tc main_arg4) = (inputs m c).rows :=
  (W2_of_ne m ρ c main_arg4 (by decide)).trans (show StableHlo.after hostOps0 (W0 m ρ c) (Proc.devRef .tc main_arg4) = W0 m ρ c (Proc.devRef .tc main_arg4) from by host_keeps hostOps0)
theorem exit1_cols : W2 m ρ c (Proc.devRef .tc main_arg5) = (inputs m c).cols :=
  (W2_of_ne m ρ c main_arg5 (by decide)).trans (show StableHlo.after hostOps0 (W0 m ρ c) (Proc.devRef .tc main_arg5) = W0 m ρ c (Proc.devRef .tc main_arg5) from by host_keeps hostOps0)

/-! ## Round 2 -/

theorem entry2_sp : V3 m ρ c main_v30 = sp2 (inputs m c) :=
  (second_pass (W2 m ρ c)).trans (by rw [exit1_ego, exit1_vals, exit1_rows, exit1_cols]; rfl)
theorem entry2_noise : V3 m ρ c main_v32 = noise1 (inputs m c).noise :=
  (second_noise (W2 m ρ c)).trans (by rw [exit1_noise])
theorem entry2_total : V3 m ρ c main_v17_1 = acc1 (inputs m c) :=
  (show StableHlo.after hostOps1 (W2 m ρ c) (Proc.devRef .tc main_v17_1) = W2 m ρ c (Proc.devRef .tc main_v17_1) from by host_keeps hostOps1).trans (exit1_total m ρ c)

theorem exit2_ego : W4 m ρ c (Proc.devRef .tc main_v33_0) = ego2 (inputs m c) := by
  unfold ego2
  rw [← entry2_sp m ρ c, ← entry2_noise m ρ c]
  exact (W4_arr m ρ c 3).trans (Region1.ego_table (V3 m ρ) c)
theorem exit2_total : W4 m ρ c (Proc.devRef .tc main_v33_1) = acc2 (inputs m c) := by
  unfold acc2 ego2
  rw [← entry2_sp m ρ c, ← entry2_noise m ρ c, ← entry2_total m ρ c]
  exact (W4_arr m ρ c 4).trans (Region1.acc_table (V3 m ρ) c)
theorem exit2_vals : W4 m ρ c (Proc.devRef .tc main_arg2) = (inputs m c).vals :=
  (W4_of_ne m ρ c main_arg2 (by decide)).trans ((show StableHlo.after hostOps1 (W2 m ρ c) (Proc.devRef .tc main_arg2) = W2 m ρ c (Proc.devRef .tc main_arg2) from by host_keeps hostOps1).trans (exit1_vals m ρ c))
theorem exit2_noise : W4 m ρ c (Proc.devRef .tc main_arg3) = (inputs m c).noise :=
  (W4_of_ne m ρ c main_arg3 (by decide)).trans ((show StableHlo.after hostOps1 (W2 m ρ c) (Proc.devRef .tc main_arg3) = W2 m ρ c (Proc.devRef .tc main_arg3) from by host_keeps hostOps1).trans (exit1_noise m ρ c))
theorem exit2_rows : W4 m ρ c (Proc.devRef .tc main_arg4) = (inputs m c).rows :=
  (W4_of_ne m ρ c main_arg4 (by decide)).trans ((show StableHlo.after hostOps1 (W2 m ρ c) (Proc.devRef .tc main_arg4) = W2 m ρ c (Proc.devRef .tc main_arg4) from by host_keeps hostOps1).trans (exit1_rows m ρ c))
theorem exit2_cols : W4 m ρ c (Proc.devRef .tc main_arg5) = (inputs m c).cols :=
  (W4_of_ne m ρ c main_arg5 (by decide)).trans ((show StableHlo.after hostOps1 (W2 m ρ c) (Proc.devRef .tc main_arg5) = W2 m ρ c (Proc.devRef .tc main_arg5) from by host_keeps hostOps1).trans (exit1_cols m ρ c))

/-! ## Round 3 -/

theorem entry3_sp : V5 m ρ c main_v46 = sp3 (inputs m c) :=
  (third_pass (W4 m ρ c)).trans (by rw [exit2_ego, exit2_vals, exit2_rows, exit2_cols]; rfl)
theorem entry3_noise : V5 m ρ c main_v48 = noise2 (inputs m c).noise :=
  (third_noise (W4 m ρ c)).trans (by rw [exit2_noise])
theorem entry3_total : V5 m ρ c main_v33_1 = acc2 (inputs m c) :=
  (show StableHlo.after hostOps2 (W4 m ρ c) (Proc.devRef .tc main_v33_1) = W4 m ρ c (Proc.devRef .tc main_v33_1) from by host_keeps hostOps2).trans (exit2_total m ρ c)

theorem exit3_total : W6 m ρ c (Proc.devRef .tc main_v49_1) = acc3 (inputs m c) := by
  unfold acc3 ego3
  rw [← entry3_sp m ρ c, ← entry3_noise m ρ c, ← entry3_total m ρ c]
  exact (W6_arr m ρ c 4).trans (Region2.acc_table (V5 m ρ) c)

/-! ## The results -/

theorem users_eq : W7 m ρ c (Proc.devRef .tc main_v52) = outUsers (inputs m c) :=
  (result_users (W6 m ρ c)).trans (by rw [exit3_total]; rfl)
theorem items_eq : W7 m ρ c (Proc.devRef .tc main_v53) = outItems (inputs m c) :=
  (result_items (W6 m ρ c)).trans (by rw [exit3_total]; rfl)

end Cert.KernelIdeal.Boundaries

end
-- ==== Proof.RefEncoder.lean ====
/-
  The reference computes the encoder.

  The reference's operations, read one stage at a time, are the encoder's rounds: its scatter of scaled gathered rows is
  `pass`, its slice-and-reshape of the noise is the round's noise table, and its norm, maximum, sign, quotient, products
  and sums are `ego` spelt out — the same operations on the same operands, so each identification is by unfolding.
-/
import proofs.«179942_j566935683766_2_alg».proof.Proof.Encoder
import proofs.«179942_j566935683766_2_alg».proof.Proof.Gen.ReferenceIdeal.Read

set_option maxRecDepth 16384

noncomputable section

namespace Cert.Encoder.Ref

open Idealize.ShloMosaic Cert.Encoder Cert.KernelIdeal.Stretch Cert.Perturb
open Cert.ReferenceIdeal.Read

variable {F : FTy → Type} [FloatOps F] (x : Inputs F)

theorem sp1_eq : val_main_v14 (F := F) x.user x.item x.vals x.rows x.cols = sp1 x := rfl
theorem noise0_eq : val_main_v16 (F := F) x.noise = noise0 x.noise := rfl
theorem ego1_eq : val_main_v26 (F := F) x.user x.item x.vals x.noise x.rows x.cols = ego1 x := by
  unfold ego1; rw [← sp1_eq, ← noise0_eq]; rfl
theorem acc1_eq : val_main_v27 (F := F) x.user x.item x.vals x.noise x.rows x.cols = acc1 x := by
  unfold acc1; rw [← ego1_eq]; rfl

theorem sp2_eq : val_main_v40 (F := F) x.user x.item x.vals x.noise x.rows x.cols = sp2 x := by
  unfold sp2; rw [← ego1_eq]; rfl
theorem noise1_eq : val_main_v42 (F := F) x.noise = noise1 x.noise := rfl
theorem ego2_eq : val_main_v52 (F := F) x.user x.item x.vals x.noise x.rows x.cols = ego2 x := by
  unfold ego2; rw [← sp2_eq, ← noise1_eq]; rfl
theorem acc2_eq : val_main_v53 (F := F) x.user x.item x.vals x.noise x.rows x.cols = acc2 x := by
  unfold acc2; rw [← acc1_eq, ← ego2_eq]; rfl

theorem sp3_eq : val_main_v66 (F := F) x.user x.item x.vals x.noise x.rows x.cols = sp3 x := by
  unfold sp3; rw [← ego2_eq]; rfl
theorem noise2_eq : val_main_v68 (F := F) x.noise = noise2 x.noise := rfl
theorem ego3_eq : val_main_v78 (F := F) x.user x.item x.vals x.noise x.rows x.cols = ego3 x := by
  unfold ego3; rw [← sp3_eq, ← noise2_eq]; rfl
theorem acc3_eq : val_main_v79 (F := F) x.user x.item x.vals x.noise x.rows x.cols = acc3 x := by
  unfold acc3; rw [← acc2_eq, ← ego3_eq]; rfl

/-- The reference's two results are the encoder's. -/
theorem users_eq : val_main_v82 (F := F) x.user x.item x.vals x.noise x.rows x.cols = outUsers x := by
  unfold outUsers; rw [← acc3_eq]; rfl
theorem items_eq : val_main_v83 (F := F) x.user x.item x.vals x.noise x.rows x.cols = outItems x := by
  unfold outItems; rw [← acc3_eq]; rfl

end Cert.Encoder.Ref

end
-- ==== Proof.lean ====
/-
  The certificate of the perturb-and-accumulate encoder: the kernel's entry point against its jnp reference, equal as
  extended reals.

  Both programs run three rounds of: a sparse message pass on the host (gather the source rows, scale by the edge values,
  scatter-add at the destination rows), a perturbation of the result by the sign-aligned, row-normalised noise of the round,
  and an addition to a running total; both end by dividing the total by 3 and cutting it into the users' and the items' rows.
  The kernel does the perturbation and the addition in a tiled launch, one block of 5000 rows per grid point; the reference
  does them as whole-array host operations.
    * The idealized kernel's run, with its two results named, is Proof/KernelRun.lean; what each launch leaves in its two
      output tables, as whole arrays, is Proof/Region0..2.lean over the per-entry reading of a block in Proof/Payload.lean;
      the host stretches between the launches are Proof/Stretch.lean; put together along @main, the kernel's results are the
      function `Encoder.outUsers` / `outItems` of the six inputs (Proof/Boundaries.lean).
    * The reference's results are the same function (Proof/RefEncoder.lean), stage by stage.
    * At an entry the two sides differ in two spellings only: the kernel's sign is a comparison-and-select term, which is the
      sign at every extended real, and the host's row sum starts from the zero word where the kernel's lane sum has none.
      No law of arithmetic is used beyond 0 + x = x, so the inputs' finiteness is never needed.
    * `preserves`: the three ledger entries are the sign-bit rule's statement at the block shape.
    * The frames: each kernel program's run through its seven segments with the arguments read at the end, and, for the
      reference, its run with the results dropped.
-/
import proofs.«179942_j566935683766_2_alg».proof.Defs
import proofs.«179942_j566935683766_2_alg».proof.Proof.Gen.Kernel
import proofs.«179942_j566935683766_2_alg».proof.Proof.Gen.KernelIdeal
import proofs.«179942_j566935683766_2_alg».proof.Proof.Gen.ReferenceIdeal
import proofs.«179942_j566935683766_2_alg».proof.Proof.Gen.ReferenceIdeal.Run
import proofs.«179942_j566935683766_2_alg».proof.Proof.Gen.ReferenceIdeal.Read
import proofs.«179942_j566935683766_2_alg».proof.Proof.Gen.Pre_finite_inputs
import proofs.«179942_j566935683766_2_alg».proof.Proof.KernelFrameP
import proofs.«179942_j566935683766_2_alg».proof.Proof.KernelIdealFrameP
import proofs.«179942_j566935683766_2_alg».proof.Proof.KernelRun
import proofs.«179942_j566935683766_2_alg».proof.Proof.Boundaries
import proofs.«179942_j566935683766_2_alg».proof.Proof.RefEncoder
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ
theorem frame_kernelIdeal : Cert.frame_KernelIdeal := fun m ρ _ => Cert.KernelIdeal.GenP.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ledger's three entries, one per launch: the sign-bit window at the block shape. -/
theorem preserves : Cert.preserves_Kernel_KernelIdeal :=
  ⟨IdealRules.sign_bit.statement Cert.KernelIdeal.S5000x64 .f32, IdealRules.sign_bit.statement Cert.KernelIdeal.S5000x64 .f32,
    IdealRules.sign_bit.statement Cert.KernelIdeal.S5000x64 .f32⟩

/-- Both idealized programs end with the encoder's two results of the (agreeing) inputs. -/
theorem algebraic : Cert.algebraic_KernelIdeal_ReferenceIdeal := by
  intro m ρ m' ρ' _ hagree
  refine ⟨fun c => Cert.Encoder.outUsers (Cert.KernelIdeal.Boundaries.inputs m c),
    fun c => Cert.Encoder.outItems (Cert.KernelIdeal.Boundaries.inputs m c), ?_, ?_⟩
  · exact (θ_run Cert.KernelIdeal.defs _ _).mono
      (fun r h c => ⟨(h c).1.trans (Cert.KernelIdeal.Boundaries.users_eq m ρ c),
        (h c).2.1.trans (Cert.KernelIdeal.Boundaries.items_eq m ρ c), (h c).2.2⟩)
      (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v82_eq, (hagree c).1, (hagree c).2.1, (hagree c).2.2.1, (hagree c).2.2.2.1,
        (hagree c).2.2.2.2.1, (hagree c).2.2.2.2.2]
      exact Cert.Encoder.Ref.users_eq (Cert.KernelIdeal.Boundaries.inputs m c)
    · rw [Cert.ReferenceIdeal.Read.val_main_v83_eq, (hagree c).1, (hagree c).2.1, (hagree c).2.2.1, (hagree c).2.2.2.1,
        (hagree c).2.2.2.2.1, (hagree c).2.2.2.2.2]
      exact Cert.Encoder.Ref.items_eq (Cert.KernelIdeal.Boundaries.inputs m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
